-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S16x16 : Shape := ⟨2, ![16, 16]⟩
abbrev S256x16 : Shape := ⟨2, ![256, 16]⟩
abbrev S256x256 : Shape := ⟨2, ![256, 256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16x16 : S_.BroadcastsInDim S16x16 (![] : Fin 0 → Fin S16x16.rank)
  reducesTo_S16x16_S_d0_1 : S16x16.ReducesTo [0, 1] S_
  bcast_S_S256x16 : S_.BroadcastsInDim S256x16 (![] : Fin 0 → Fin S256x16.rank)
  reducesTo_S256x16_S_d0_1 : S256x16.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S16x16 .f32) (main_arg8 : FVec F S256x16 .f32) (main_arg9 : FVec F S256x16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S256x16 .f32 := Host.absf main_arg8
  let main_cst_14 : FVec F S_ .f32 := constant S_ .f32 0x7F800000#32
  let main_v40 : FVec F S256x16 .f32 := broadcastInDim S256x16 ![] bcast_S_S256x16 main_cst_14
  let main_v41 : IVec S256x16 1 := cmpf .olt main_v39 main_v40
  let main_c_15 : IVec S_ 1 := constantI S_ 1 1#1
  let main_v42 : IVec S_ 1 := (fun x v => Host.reduce IntOp.andi x v reducesTo_S256x16_S_d0_1 h_S_) main_v41 main_c_15
  let main_v43 : IVec S_ 1 := andi main_v38 main_v42
  let main_v44 : FVec F S256x16 .f32 := Host.absf main_arg9
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  main_v48

def fn_part1 {F : FTy → Type} [FloatOps F] (main_arg4 : FVec F S16x256 .f32) (main_arg5 : FVec F S16x256 .f32) (main_arg6 : FVec F S256x256 .f32) (main_arg7 : FVec F S16x16 .f32) (main_arg8 : FVec F S256x16 .f32) (main_arg9 : FVec F S256x16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S16x256 .f32 := Host.absf main_arg5
  let main_cst_8 : FVec F S_ .f32 := constant S_ .f32 0x7F800000#32
  let main_v25 : FVec F S16x256 .f32 := broadcastInDim S16x256 ![] bcast_S_S16x256 main_cst_8
  let main_v26 : IVec S16x256 1 := cmpf .olt main_v24 main_v25
  let main_c_9 : IVec S_ 1 := constantI S_ 1 1#1
  let main_v27 : IVec S_ 1 := (fun x v => Host.reduce IntOp.andi x v reducesTo_S16x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x256x64x64 .f32) (main_arg1 : FVec F S16x256 .f32) (main_arg2 : FVec F S16x16 .f32) (main_arg3 : FVec F S256x16 .f32) (main_arg4 : FVec F S16x256 .f32) (main_arg5 : FVec F S16x256 .f32) (main_arg6 : FVec F S256x256 .f32) (main_arg7 : FVec F S16x16 .f32) (main_arg8 : FVec F S256x16 .f32) (main_arg9 : FVec F S256x16 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_v13 main_v16
-- ==== Kernel.lean ====
abbrev S32x256x64x64 : Shape := ⟨4, ![32, 256, 64, 64]⟩
abbrev S16x256 : Shape := ⟨2, ![16, 256]⟩
abbrev S16x16 : Shape := ⟨2, ![16, 16]⟩
abbrev S256x16 : Shape := ⟨2, ![256, 16]⟩
abbrev S256x256 : Shape := ⟨2, ![256, 256]⟩
abbrev S32x256x4096 : Shape := ⟨3, ![32, 256, 4096]⟩
abbrev S32x256 : Shape := ⟨2, ![32, 256]⟩
abbrev S8x128x4096 : Shape := ⟨3, ![8, 128, 4096]⟩
abbrev S8x128 : Shape := ⟨2, ![8, 128]⟩
abbrev S32x16 : Shape := ⟨2, ![32, 16]⟩
abbrev S_ : Shape := ⟨0, ![]⟩
abbrev S8x128x2048 : Shape := ⟨3, ![8, 128, 2048]⟩
abbrev S8x128x1 : Shape := ⟨3, ![8, 128, 1]⟩

abbrev nBuf : Space → Nat
  | .hbm => 52
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16x16, .f32⟩
  | .hbm, ⟨3, _⟩ => ⟨S256x16, .f32⟩
  | .hbm, ⟨4, _⟩ => ⟨S16x256, .f32⟩
  | .hbm, ⟨5, _⟩ => ⟨S16x256, .f32⟩
  | .hbm, ⟨6, _⟩ => ⟨S256x256, .f32⟩
  | .hbm, ⟨7, _⟩ => ⟨S16x16, .f32⟩
  | .hbm, ⟨8, _⟩ => ⟨S256x16, .f32⟩
  | .hbm, ⟨9, _⟩ => ⟨S256x16, .f32⟩
  | .hbm, ⟨10, _⟩ => ⟨S32x256x4096, .f32⟩
  | .hbm, ⟨11, _⟩ => ⟨S32x256, .f32⟩
  | .hbm, ⟨12, _⟩ => ⟨S256x16, .f32⟩
  | .hbm, ⟨13, _⟩ => ⟨S32x16, .f32⟩
  | .hbm, ⟨14, _⟩ => ⟨S256x16, .f32⟩
  | .hbm, ⟨15, _⟩ => ⟨S32x16, .f32⟩
  | .hbm, ⟨16, _⟩ => ⟨S256x256, .f32⟩
  | .hbm, ⟨17, _⟩ => ⟨S32x256, .f32⟩
  | .hbm, ⟨18, _⟩ => ⟨S256x16, .f32⟩
  | .hbm, ⟨19, _⟩ => ⟨S32x16, .f32⟩
  | .hbm, ⟨20, _⟩ => ⟨S32x16, .f32⟩
  | .hbm, ⟨21, _⟩ => ⟨S_, .f32⟩
  | .hbm, ⟨22, _⟩ => ⟨S32x16, .f32⟩
  | .hbm, ⟨23, _⟩ => ⟨S32x16, .f32⟩
  | .hbm, ⟨24, _⟩ => ⟨S16x16, .f32⟩
  | .hbm, ⟨25, _⟩ => ⟨S32x16, .f32⟩
  | .hbm, ⟨26, _⟩ => ⟨S16x256, .f32⟩
  | .hbm, ⟨27, _⟩ => ⟨S32x256, .f32⟩
  | .hbm, ⟨28, _⟩ => ⟨S16x16, .f32⟩
  | .hbm, ⟨29, _⟩ => ⟨S32x16, .f32⟩
  | .hbm, ⟨30, _⟩ => ⟨S32x16, .f32⟩
  | .hbm, ⟨31, _⟩ => ⟨S32x16, .f32⟩
  | .hbm, ⟨32, _⟩ => ⟨S_, .f32⟩
  | .hbm, ⟨33, _⟩ => ⟨S32x16, .f32⟩
  | .hbm, ⟨34, _⟩ => ⟨S32x16, .f32⟩
  | .hbm, ⟨35, _⟩ => ⟨S16x256, .f32⟩
  | .hbm, ⟨36, _⟩ => ⟨S32x256, .f32⟩
  | .hbm, ⟨37, _⟩ => ⟨S16x256, .f32⟩
  | .hbm, ⟨38, _⟩ => ⟨S32x256, .f32⟩
  | .hbm, ⟨39, _⟩ => ⟨S32x256, .f32⟩
  | .hbm, ⟨40, _⟩ => ⟨S32x256, .f32⟩
  | .hbm, ⟨41, _⟩ => ⟨S32x256, .f32⟩
  | .hbm, ⟨42, _⟩ => ⟨S32x256, .f32⟩
  | .hbm, ⟨43, _⟩ => ⟨S32x256, .f32⟩
  | .hbm, ⟨44, _⟩ => ⟨S_, .f32⟩
  | .hbm, ⟨45, _⟩ => ⟨S32x256, .f32⟩
  | .hbm, ⟨46, _⟩ => ⟨S32x256, .f32⟩
  | .hbm, ⟨47, _⟩ => ⟨S_, .f32⟩
  | .hbm, ⟨48, _⟩ => ⟨S32x256, .f32⟩
  | .hbm, ⟨49, _⟩ => ⟨S32x256, .f32⟩
  | .hbm, ⟨50, _⟩ => ⟨S32x256x4096, .f32⟩
  | .hbm, ⟨51, _⟩ => ⟨S32x256x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x128x2048, .f32⟩
  | .local _ .vmem, ⟨5, _⟩ => ⟨S8x128x2048, .f32⟩
  | .local _ .vmem, ⟨6, _⟩ => ⟨S8x128, .f32⟩
  | .local _ .vmem, ⟨7, _⟩ => ⟨S8x128, .f32⟩
  | .local _ .vmem, ⟨8, _⟩ => ⟨S8x128x2048, .f32⟩
  | .local _ .vmem, ⟨9, _⟩ => ⟨S8x128x2048, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S8x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S32x256x64x64_S32x256x4096 : S32x256x64x64.ShapeCasts S32x256x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  transposes_S16x256_S256x16_1_0 : S16x256.Transposes [1, 0] S256x16
  transposes_S256x256_S256x256_1_0 : S256x256.Transposes [1, 0] S256x256
  bcast_S_S32x16 : S_.BroadcastsInDim S32x16 (![] : Fin 0 → Fin S32x16.rank)
  transposes_S16x16_S16x16_1_0 : S16x16.Transposes [1, 0] S16x16
  transposes_S256x16_S16x256_1_0 : S256x16.Transposes [1, 0] S16x256
  bcast_S_S32x256 : S_.BroadcastsInDim S32x256 (![] : Fin 0 → Fin S32x256.rank)
  shapeCasts_S8x128_S8x128 : S8x128.ShapeCasts S8x128
  inb_S8x128x2048_S8x128x2048_0_0_0 : ∀ a, (![0, 0, 0] : Fin 3 → Nat) a + S8x128x2048.size a ≤ S8x128x2048.size a
  h_S8x128x2048 : 0 < S8x128x2048.numel
  shapeCasts_S8x128x2048_S8x128x2048 : S8x128x2048.ShapeCasts S8x128x2048
  shapeCasts_S8x128_S8x128x1 : S8x128.ShapeCasts S8x128x1
  broadcasts_S8x128x1_S8x128x2048 : S8x128x1.Broadcasts S8x128x2048
  shapeCasts_S32x256x4096_S32x256x64x64 : S32x256x4096.ShapeCasts S32x256x64x64
  dot_S32x256_S256x16_S32x16_1_0_0_1_n_n_wf : DotDims.WF S32x256 S256x16 S32x16 [1] [0] [0] [1] [] []
  dot_S32x256_S256x256_S32x256_1_0_0_1_n_n_wf : DotDims.WF S32x256 S256x256 S32x256 [1] [0] [0] [1] [] []
  dot_S32x16_S16x16_S32x16_1_0_0_1_n_n_wf : DotDims.WF S32x16 S16x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x256x4096.size a
  hwx0_0 : ∀ i : grid0.Coords, EltTy.bits .f32 = 32 ∨ (Rect.block (s := S32x256x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x256.size a
  hwx0_1 : ∀ i : grid0.Coords, EltTy.bits .f32 = 32 ∨ (Rect.block (s := S32x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x2048.size a ≤ S32x256x4096.size a
  hwx1_0 : ∀ i : grid1.Coords, EltTy.bits .f32 = 32 ∨ (Rect.block (s := S32x256x4096) S8x128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x256.size a
  hwx1_1 : ∀ i : grid1.Coords, EltTy.bits .f32 = 32 ∨ (Rect.block (s := S32x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x2048.size a ≤ S32x256x4096.size a
  hwx1_2 : ∀ i : grid1.Coords, EltTy.bits .f32 = 32 ∨ (Rect.block (s := S32x256x4096) S8x128x2048.size (cc1_transform_2 i) (hinb1_2 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x16_S16x16_S32x16_1_0_0_1_n_n : DotDims S32x16 S16x16 S32x16 where
  lhsContracting := [1]
  rhsContracting := [0]
  lhsNonContracting := [0]
  rhsNonContracting := [1]
  lhsBatch := []
  rhsBatch := []
  wf := dot_S32x16_S16x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S8x128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S16x16 : Shape := ⟨2, ![16, 16]⟩
abbrev S256x16 : Shape := ⟨2, ![256, 16]⟩
abbrev S256x256 : Shape := ⟨2, ![256, 256]⟩
abbrev S_ : Shape := ⟨0, ![]⟩
abbrev S32x256 : Shape := ⟨2, ![32, 256]⟩
abbrev S32x16 : Shape := ⟨2, ![32, 16]⟩
abbrev S32x256x1x1 : Shape := ⟨4, ![32, 256, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16x16, .f32⟩
  | .hbm, ⟨3, _⟩ => ⟨S256x16, .f32⟩
  | .hbm, ⟨4, _⟩ => ⟨S16x256, .f32⟩
  | .hbm, ⟨5, _⟩ => ⟨S16x256, .f32⟩
  | .hbm, ⟨6, _⟩ => ⟨S256x256, .f32⟩
  | .hbm, ⟨7, _⟩ => ⟨S16x16, .f32⟩
  | .hbm, ⟨8, _⟩ => ⟨S256x16, .f32⟩
  | .hbm, ⟨9, _⟩ => ⟨S256x16, .f32⟩
  | .hbm, ⟨10, _⟩ => ⟨S_, .f32⟩
  | .hbm, ⟨11, _⟩ => ⟨S32x256, .f32⟩
  | .hbm, ⟨12, _⟩ => ⟨S_, .f32⟩
  | .hbm, ⟨13, _⟩ => ⟨S32x256, .f32⟩
  | .hbm, ⟨14, _⟩ => ⟨S32x256, .f32⟩
  | .hbm, ⟨15, _⟩ => ⟨S256x16, .f32⟩
  | .hbm, ⟨16, _⟩ => ⟨S32x16, .f32⟩
  | .hbm, ⟨17, _⟩ => ⟨S256x16, .f32⟩
  | .hbm, ⟨18, _⟩ => ⟨S32x16, .f32⟩
  | .hbm, ⟨19, _⟩ => ⟨S256x256, .f32⟩
  | .hbm, ⟨20, _⟩ => ⟨S32x256, .f32⟩
  | .hbm, ⟨21, _⟩ => ⟨S256x16, .f32⟩
  | .hbm, ⟨22, _⟩ => ⟨S32x16, .f32⟩
  | .hbm, ⟨23, _⟩ => ⟨S32x16, .f32⟩
  | .hbm, ⟨24, _⟩ => ⟨S_, .f32⟩
  | .hbm, ⟨25, _⟩ => ⟨S32x16, .f32⟩
  | .hbm, ⟨26, _⟩ => ⟨S32x16, .f32⟩
  | .hbm, ⟨27, _⟩ => ⟨S16x16, .f32⟩
  | .hbm, ⟨28, _⟩ => ⟨S32x16, .f32⟩
  | .hbm, ⟨29, _⟩ => ⟨S16x256, .f32⟩
  | .hbm, ⟨30, _⟩ => ⟨S32x256, .f32⟩
  | .hbm, ⟨31, _⟩ => ⟨S16x16, .f32⟩
  | .hbm, ⟨32, _⟩ => ⟨S32x16, .f32⟩
  | .hbm, ⟨33, _⟩ => ⟨S32x16, .f32⟩
  | .hbm, ⟨34, _⟩ => ⟨S32x16, .f32⟩
  | .hbm, ⟨35, _⟩ => ⟨S_, .f32⟩
  | .hbm, ⟨36, _⟩ => ⟨S32x16, .f32⟩
  | .hbm, ⟨37, _⟩ => ⟨S32x16, .f32⟩
  | .hbm, ⟨38, _⟩ => ⟨S16x256, .f32⟩
  | .hbm, ⟨39, _⟩ => ⟨S32x256, .f32⟩
  | .hbm, ⟨40, _⟩ => ⟨S16x256, .f32⟩
  | .hbm, ⟨41, _⟩ => ⟨S32x256, .f32⟩
  | .hbm, ⟨42, _⟩ => ⟨S32x256, .f32⟩
  | .hbm, ⟨43, _⟩ => ⟨S32x256, .f32⟩
  | .hbm, ⟨44, _⟩ => ⟨S32x256, .f32⟩
  | .hbm, ⟨45, _⟩ => ⟨S32x256, .f32⟩
  | .hbm, ⟨46, _⟩ => ⟨S32x256, .f32⟩
  | .hbm, ⟨47, _⟩ => ⟨S_, .f32⟩
  | .hbm, ⟨48, _⟩ => ⟨S32x256, .f32⟩
  | .hbm, ⟨49, _⟩ => ⟨S32x256, .f32⟩
  | .hbm, ⟨50, _⟩ => ⟨S_, .f32⟩
  | .hbm, ⟨51, _⟩ => ⟨S32x256, .f32⟩
  | .hbm, ⟨52, _⟩ => ⟨S32x256, .f32⟩
  | .hbm, ⟨53, _⟩ => ⟨S32x256x1x1, .f32⟩
  | .hbm, ⟨54, _⟩ => ⟨S32x256x64x64, .f32⟩
  | .hbm, ⟨55, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  transposes_S16x256_S256x16_1_0 : S16x256.Transposes [1, 0] S256x16
  transposes_S256x256_S256x256_1_0 : S256x256.Transposes [1, 0] S256x256
  bcast_S_S32x16 : S_.BroadcastsInDim S32x16 (![] : Fin 0 → Fin S32x16.rank)
  transposes_S16x16_S16x16_1_0 : S16x16.Transposes [1, 0] S16x16
  transposes_S256x16_S16x256_1_0 : S256x16.Transposes [1, 0] S16x256
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S256x16_S32x16_1_0_0_1_n_n_wf : DotDims.WF S32x256 S256x16 S32x16 [1] [0] [0] [1] [] []
  dot_S32x256_S256x256_S32x256_1_0_0_1_n_n_wf : DotDims.WF S32x256 S256x256 S32x256 [1] [0] [0] [1] [] []
  dot_S32x16_S16x16_S32x16_1_0_0_1_n_n_wf : DotDims.WF S32x16 S16x16 S32x16 [1] [0] [0] [1] [] []
  dot_S32x16_S16x256_S32x256_1_0_0_1_n_n_wf : DotDims.WF S32x16 S16x256 S32x256 [1] [0] [0] [1] [] []

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x16_S16x16_S32x16_1_0_0_1_n_n : DotDims S32x16 S16x16 S32x16 where
  lhsContracting := [1]
  rhsContracting := [0]
  lhsNonContracting := [0]
  rhsNonContracting := [1]
  lhsBatch := []
  rhsBatch := []
  wf := dot_S32x16_S16x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

class Facts : Prop extends Facts₀ where

variable [Facts]
-- ==== Proof.KernelRun.lean ====
/-
  The idealized kernel's whole run with its RESULT named.  @main is nine segments: a reshape of the input to
  [32, 256, 4096], the pooling region, five stretches of host operations (the gate's MLP), the scaling region, and a
  reshape back to [32, 256, 64, 64].  The buffer contents at the segment boundaries are a fold through those segments
  from the launch memory (`Gen.W0` … `Gen.W9`).  Every weakly fair execution terminates, and in its final memory the
  result buffer holds the last boundary's contents at that buffer, while each argument array is as launched.
-/
import proofs.«115935_j9929964388630_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments, read against the final memory: the result buffer at the last boundary's contents,
    the ten argument arrays unchanged. -/
theorem run : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Whole

end
-- ==== Proof.Spec.lean ====
/-
  The mathematics of a squeeze-and-excite channel gate over an array x of shape [32, 256, 64, 64], with no program
  in sight.  The kernel works on x with its two spatial axes merged into one axis of 4096 = 64 * 64 positions
  (position h * 64 + w), the reference on x itself.  Three facts are all that joins them:
    * the mean of a channel's plane is the same number either way: a sum over the 4096 merged positions is the
      double sum over (h, w), a re-indexing of a finite sum in a commutative monoid (no finiteness is needed);
    * the host's sum over the two trailing axes, read at a channel (b, c), is the sum over (h, w) of x[b, c, h, w];
    * scaling the merged array by a per-channel gate and splitting the axis again is scaling x itself.
-/
import Idealize.ShloMosaic.PureOps.Ideal.Laws
import Idealize.ShloMosaic.Lib.ValueIdx
import Idealize.ShloMosaic.Lib.Pipeline.Value

noncomputable section

open scoped BigOperators

namespace Cert.ChannelGate

open Idealize.ShloMosaic Idealize.ShloMosaic.ValueIdx

/-- The array's shape, its shape with the spatial axes merged, and the shape of one number per channel. -/
abbrev X4 : Shape := ⟨4, ![32, 256, 64, 64]⟩
abbrev X3 : Shape := ⟨3, ![32, 256, 4096]⟩
abbrev Y2 : Shape := ⟨2, ![32, 256]⟩

/-- A spatial coordinate pair (h, w) is the merged position h * 64 + w. -/
def merge : Fin 64 × Fin 64 ≃ Fin 4096 where
  toFun p := ⟨p.1.val * 64 + p.2.val, by have := p.1.isLt; have := p.2.isLt; omega⟩
  invFun k := (⟨k.val / 64, by have := k.isLt; omega⟩, ⟨k.val % 64, by omega⟩)
  left_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega
  right_inv k := by
    refine Fin.ext ?_
    show k.val / 64 * 64 + k.val % 64 = k.val; omega

theorem merge_val (p : Fin 64 × Fin 64) : (merge p).val = p.1.val * 64 + p.2.val := rfl

/-- A sum over the merged positions is the sum over the coordinate pairs. -/
theorem sum_merge {M : Type*} [AddCommMonoid M] (g : Fin 4096 → M) :
    ∑ k, g k = ∑ p : Fin 64 × Fin 64, g (merge p) := (Equiv.sum_comp merge g).symm

/-- The indices of x that a reduction over the two spatial axes sends to channel `j` are exactly the
    (j 0, j 1, h, w): the sum over them is the sum over the pairs (h, w). -/
theorem sum_drop {M : Type*} [AddCommMonoid M] (h' : X4.ReducesTo [2, 3] Y2) (x : X4.Idx → M) (j : Y2.Idx) :
    ∑ i ∈ Finset.univ.filter (fun i => h'.drop i = j), x i = ∑ p : Fin 64 × Fin 64, x (ix4 (j 0) (j 1) p.1 p.2) := by
  have d0 : ∀ i : X4.Idx, (h'.drop i 0 : Nat) = i 0 := fun i => Shape.ReducesTo.drop_apply_val_of_eq h' i 0 0
  have d1 : ∀ i : X4.Idx, (h'.drop i 1 : Nat) = i 1 := fun i => Shape.ReducesTo.drop_apply_val_of_eq h' i 1 1
  have back : ∀ i ∈ Finset.univ.filter (fun i => h'.drop i = j), ix4 (j 0) (j 1) (i 2) (i 3) = i := by
    intro i hi
    have hd := (Finset.mem_filter.mp hi).2
    funext a; apply Fin.ext
    match a with
    | ⟨0, _⟩ => show (j 0).val = (i 0).val; rw [← hd]; exact d0 i
    | ⟨1, _⟩ => show (j 1).val = (i 1).val; rw [← hd]; exact d1 i
    | ⟨2, _⟩ => rfl
    | ⟨3, _⟩ => rfl
  refine Finset.sum_nbij' (fun i => ((i 2 : Fin 64), (i 3 : Fin 64))) (fun p => ix4 (j 0) (j 1) p.1 p.2) ?_ ?_ ?_ ?_ ?_
  · intro i _; exact Finset.mem_univ _
  · intro p _
    refine Finset.mem_filter.mpr ⟨Finset.mem_univ _, funext fun b => Fin.ext ?_⟩
    match b with
    | ⟨0, _⟩ => exact d0 _
    | ⟨1, _⟩ => exact d1 _
  · intro i hi; exact back i hi
  · intro p _; rfl
  · intro i hi; exact congrArg x (back i hi).symm

/-- Merging the spatial axes keeps row-major positions: the merged array at (b, c, h * 64 + w) is x at (b, c, h, w). -/
theorem flat_apply {α : Type} (x : X4.Idx → α) (h : X4.ShapeCasts X3) (b : Fin 32) (c : Fin 256) (p : Fin 64 × Fin 64) :
    shapeCast X3 x h (ix3 b c (merge p)) = x (ix4 b c p.1 p.2) := by
  refine shapeCast_apply x h _ _ ?_
  rw [Shape.rowMajor_val_four, Shape.rowMajor_val_three]
  show ((b.val * 256 + c.val) * 64 + p.1.val) * 64 + p.2.val = (b.val * 256 + c.val) * 4096 + (p.1.val * 64 + p.2.val)
  omega

/-- Splitting the merged axis again: the split array at (b, c, h, w) is the merged one at (b, c, h * 64 + w). -/
theorem unflat_apply {α : Type} (y : X3.Idx → α) (h : X3.ShapeCasts X4) (b : Fin 32) (c : Fin 256) (p : Fin 64 × Fin 64) :
    shapeCast X4 y h (ix4 b c p.1 p.2) = y (ix3 b c (merge p)) := by
  refine shapeCast_apply y h _ _ ?_
  rw [Shape.rowMajor_val_four, Shape.rowMajor_val_three]
  show (b.val * 256 + c.val) * 4096 + (p.1.val * 64 + p.2.val) = ((b.val * 256 + c.val) * 64 + p.1.val) * 64 + p.2.val
  omega

/-- The channel means of a merged array: at channel (b, c) the sum over the 4096 positions, divided by the float 4096. -/
def pooled (xf : X3.Idx → EReal) : Y2.Idx → EReal :=
  fun j => Ideal.div (∑ k : Fin 4096, xf (ix3 (j 0) (j 1) k)) (Ideal.ofBits .f32 0x45800000#32)

/-- A merged array scaled channel by channel: entry (b, c, k) times the gate's entry (b, c). -/
def scaled (xf : X3.Idx → EReal) (g : Y2.Idx → EReal) : X3.Idx → EReal :=
  fun i => xf i * g (ix2 (i 0) (i 1))

/-- THE LAW: the channel means of the merged array are the host's sum of x over its two spatial axes, started at the
    float zero, divided by the float 4096 — both are the same finite sum, indexed by position or by (h, w). -/
theorem pooled_flat (x : X4.Idx → EReal) (h : X4.ShapeCasts X3) (h' : X4.ReducesTo [2, 3] Y2) (j : Y2.Idx) :
    pooled (shapeCast X3 x h) j
      = Ideal.div (Ideal.hostReduceAdd h' x (Ideal.ofBits .f32 0x00000000#32) j) (Ideal.ofBits .f32 0x45800000#32) := by
  unfold pooled Ideal.hostReduceAdd
  refine congrArg (fun s => Ideal.div s (Ideal.ofBits .f32 0x45800000#32)) ?_
  rw [Ideal.ofBits_zero_f32, zero_add, sum_drop h' x j]
  refine (sum_merge _).trans (Finset.sum_congr rfl fun p _ => ?_)
  exact flat_apply x h (j 0) (j 1) p

/-- Scaling the merged array and splitting the axis again is scaling x entry by entry by its channel's gate. -/
theorem out_apply (x : X4.Idx → EReal) (g : Y2.Idx → EReal) (h : X4.ShapeCasts X3) (hb : X3.ShapeCasts X4) (i : X4.Idx) :
    shapeCast X4 (scaled (shapeCast X3 x h) g) hb i = x i * g (ix2 (i 0) (i 1)) := by
  obtain ⟨b, c, hh, w, rfl⟩ : ∃ (b : Fin 32) (c : Fin 256) (hh w : Fin 64), i = ix4 b c hh w := ⟨i 0, i 1, i 2, i 3, eq_ix4 i⟩
  refine (unflat_apply _ hb b c (hh, w)).trans ?_
  show shapeCast X3 x h (ix3 b c (merge (hh, w))) * g (ix2 b c) = x (ix4 b c hh w) * g (ix2 b c)
  rw [flat_apply x h b c (hh, w)]

end Cert.ChannelGate

end
-- ==== Proof.PoolValue.lean ====
/-
  The pooling region, read as one function of the array it finds.  The region's grid is 4 × 2; at point (i, j) the body
  loads the block of 8 batch rows × 128 channels × all 4096 merged positions, sums each (row, channel) line over its
  4096 positions, divides by the float 4096 and stores the [8, 128] result as block (i, j) of the output.  Every output
  entry is written by exactly the point whose block holds it, and it depends only on its own line of the input: so
  after the region the output array holds the channel means of the whole input array.
-/
import proofs.«115935_j9929964388630_2_alg».proof.Proof.Gen.KernelIdeal.Frame
import proofs.«115935_j9929964388630_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pool

open Cert.KernelIdeal Cert.KernelIdeal.Gen Cert.ChannelGate
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- One entry of the body's stored value: the sum of its line of the loaded block over the 4096 positions, over 4096. -/
theorem pay_line (x0 : Vec Ideal S8x128x4096 .f32) (p : Fin 8) (q : Fin 128) :
    k0_pay1 x0 (ix2 p q) = Ideal.div (∑ k : Fin 4096, x0 (ix3 p q k)) (Ideal.ofBits .f32 0x45800000#32) := by
  unfold k0_pay1
  show Ideal.div (multiReduction (F := Ideal) .add [2] S8x128 (shapeCast S8x128x4096 x0 shapeCasts_S8x128x4096_S8x128x4096) 0x00000000#32
      reduces_S8x128x4096_S8x128 (.inl rfl) rfl (ix2 p q)) (Ideal.ofBits .f32 0x45800000#32) = _
  refine congrArg (fun s => Ideal.div s (Ideal.ofBits .f32 0x45800000#32)) ?_
  rw [shapeCast_self]
  refine (Ideal.multiReduction_add_single x0 0x00000000#32 reduces_S8x128x4096_S8x128 (.inl rfl) rfl (ix2 p q)).trans ?_
  refine Finset.sum_congr rfl fun k _ => congrArg x0 ?_
  funext a; apply Fin.ext
  match a with
  | ⟨0, _⟩ => rfl
  | ⟨1, _⟩ => rfl
  | ⟨2, _⟩ => rfl

/-- If the loaded block's line at (p, q) is the array's line at channel `i`, the stored entry is that channel's mean. -/
theorem pool_at (A : X3.Idx → EReal) (x0 : Vec Ideal S8x128x4096 .f32) (j : S8x128.Idx) (i : Y2.Idx)
    (hx : ∀ k : Fin 4096, x0 (ix3 (j 0) (j 1) k) = A (ix3 (i 0) (i 1) k)) :
    k0_pay1 x0 j = pooled A i := by
  obtain ⟨p, q, rfl⟩ : ∃ (p : Fin 8) (q : Fin 128), j = ix2 p q := ⟨j 0, j 1, eq_ix2 j⟩
  refine (pay_line x0 p q).trans ?_
  unfold pooled
  exact congrArg (fun s => Ideal.div s (Ideal.ofBits .f32 0x45800000#32)) (Finset.sum_congr rfl fun k _ => hx k)

/-- The printed index maps over the grid: the input block moves with the output block on the two leading axes and stays
    at 0 on the merged axis; the output's block indices stay in their ranges. -/
theorem idx_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 1 :=
  (by decide +kernel : ∀ t : Fin grid0.N, _)

/-- Every block of the output is some point's. -/
theorem idx_onto : ∀ (q0 : Fin 4) (q1 : Fin 2), ∃ t : Fin cfg0.N, win0_1.index t = ![q0.val, q1.val] :=
  (by decide +kernel : ∀ (q0 : Fin 4) (q1 : Fin 2), ∃ t : Fin grid0.N, win0_1.index t = ![q0.val, q1.val])

/-- What point `t` writes back is block `t` of the channel means of the input array as the region finds it. -/
theorem flushed_pool (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero hz2]
  simp only [View.ld_unit_zero (S := S8x128x4096) hz3]
  obtain ⟨e0, e1, e2, -, -⟩ := idx_facts t
  refine funext fun (j : S8x128.Idx) => ?_
  show k0_pay1 (iblk0 V c 0 t) j = pooled (V c main_v0) (((cfg0.win 1).blk t).view.emb j)
  refine pool_at (V c main_v0) (iblk0 V c 0 t) j (((cfg0.win 1).blk t).view.emb j) (fun k => ?_)
  show (V c main_v0 : X3.Idx → EReal) (((cfg0.win 0).blk t).view.emb (ix3 (j 0) (j 1) k)) = (V c main_v0 : X3.Idx → EReal) _
  refine congrArg (V c main_v0 : X3.Idx → EReal) ?_
  funext a; apply Fin.ext
  match a with
  | ⟨0, _⟩ => show win0_0.index t (0 : Fin 3) * 8 + 1 * (j 0).val = win0_1.index t (0 : Fin 2) * 8 + 1 * (j 0).val; omega
  | ⟨1, _⟩ => show win0_0.index t (1 : Fin 3) * 128 + 1 * (j 1).val = win0_1.index t (1 : Fin 2) * 128 + 1 * (j 1).val; omega
  | ⟨2, _⟩ => show win0_0.index t (2 : Fin 3) * 4096 + 1 * k.val = k.val; omega

/-- An index of the output array is in point `t`'s block iff each coordinate is in the block's range on its axis. -/
theorem mem_blk (t : Fin cfg0.N) (i : S32x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- The output's blocks tile it: entry (r, ch) is in the block of the point at (r / 8, ch / 128). -/
theorem cover (i : S32x256.Idx) : ∃ t : Fin cfg0.N, (cfg0.win 1).flush t = true ∧ i ∈ ((cfg0.win 1).blk t).view.set := by
  have hi0 : (i 0).val < 32 := (i 0).isLt
  have hi1 : (i 1).val < 256 := (i 1).isLt
  obtain ⟨t, ht⟩ := idx_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- After the region its output array holds the channel means of the input array it was entered with. -/
theorem final_pool (c : Dev nD) : (dat0 V c).arrAt 1 cfg0.N = pooled (V c main_v0) :=
  (dat0 V c).arrAt_eq_of_cover 1 (pooled (V c main_v0)) (fun t _ => flushed_pool V c t) cover

end Cert.KernelIdeal.Pool

end
-- ==== Proof.ScaleValue.lean ====
/-
  The scaling region, read as one function of the arrays it finds.  The region's grid is 4 × 2 × 2; at point (i, j, h)
  the body loads the block of 8 batch rows × 128 channels × 2048 merged positions of the input and the [8, 128] block
  (i, j) of the gate, multiplies every entry of the input block by its (row, channel)'s gate entry (the gate block
  viewed as [8, 128, 1] and repeated along the positions), and stores the product as block (i, j, h) of the output.
  Each output entry is written by the one point whose block holds it: after the region the output array is the
  input array scaled channel by channel by the gate array.
-/
import proofs.«115935_j9929964388630_2_alg».proof.Proof.Gen.KernelIdeal.Frame
import proofs.«115935_j9929964388630_2_alg».proof.Proof.Spec
import Idealize.ShloMosaic.Lib.Pipeline.Value
import Idealize.ShloMosaic.Lib.ValueIdx

set_option maxRecDepth 16384

noncomputable section

namespace Cert.KernelIdeal.Scale

open Cert.KernelIdeal Cert.KernelIdeal.Gen Cert.ChannelGate
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- One entry of the body's stored value: the input block's entry times the gate block's entry of its row and channel. -/
theorem pay_entry (g : Vec Ideal S8x128 .f32) (x : Vec Ideal S8x128x2048 .f32) (p : Fin 8) (q : Fin 128) (r : Fin 2048) :
    k1_pay1 g x (ix3 p q r) = x (ix3 p q r) * g (ix2 p q) := by
  unfold k1_pay1
  show (shapeCast S8x128x2048 x shapeCasts_S8x128x2048_S8x128x2048) (ix3 p q r)
      * broadcastTo S8x128x2048 (shapeCast S8x128x1 (shapeCast S8x128 g shapeCasts_S8x128_S8x128) shapeCasts_S8x128_S8x128x1)
          broadcasts_S8x128x1_S8x128x2048 (ix3 p q r) = _
  rw [shapeCast_self, shapeCast_self]
  refine congrArg (fun s => x (ix3 p q r) * s) ?_
  refine (broadcastTo_apply _ broadcasts_S8x128x1_S8x128x2048 (ix3 p q r) (ix3 p q (0 : Fin 1)) (fun a => ?_)).trans ?_
  · match a with
    | ⟨0, _⟩ => rfl
    | ⟨1, _⟩ => rfl
    | ⟨2, _⟩ => rfl
  · refine shapeCast_apply g shapeCasts_S8x128_S8x128x1 (ix3 p q (0 : Fin 1)) (ix2 p q) ?_
    rw [Shape.rowMajor_val_two, Shape.rowMajor_val_three]
    show p.val * 128 + q.val = (p.val * 128 + q.val) * 1 + 0
    omega

/-- If the loaded input entry is the array's entry at `i` and the loaded gate entry of its row and channel is the gate
    array's entry at `i`'s channel, the stored entry is the scaled array's entry at `i`. -/
theorem scale_at (A : X3.Idx → EReal) (G : Y2.Idx → EReal) (g : Vec Ideal S8x128 .f32) (x : Vec Ideal S8x128x2048 .f32)
    (j : S8x128x2048.Idx) (i : X3.Idx) (hx : x j = A i) (hg : g (ix2 (j 0) (j 1)) = G (ix2 (i 0) (i 1))) :
    k1_pay1 g x j = scaled A G i := by
  obtain ⟨p, q, r, rfl⟩ : ∃ (p : Fin 8) (q : Fin 128) (r : Fin 2048), j = ix3 p q r := ⟨j 0, j 1, j 2, eq_ix3 j⟩
  refine (pay_entry g x p q r).trans ?_
  unfold scaled
  exact congrArg₂ (fun a b : EReal => a * b) hx hg

/-- The printed index maps over the grid: the input block moves with the output block on all three axes, the gate block
    on the two leading ones; the output's block indices stay in their ranges. -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 2) = win1_2.index t (0 : Fin 3)
    ∧ win1_1.index t (1 : Fin 2) = win1_2.index t (1 : Fin 3)
    ∧ win1_2.index t (0 : Fin 3) ≤ 3 ∧ win1_2.index t (1 : Fin 3) ≤ 1 ∧ win1_2.index t (2 : Fin 3) ≤ 1 :=
  (by decide +kernel : ∀ t : Fin grid1.N, _)

/-- Every block of the output is some point's. -/
theorem idx_onto : ∀ (q0 : Fin 4) (q1 : Fin 2) (q2 : Fin 2), ∃ t : Fin cfg1.N, win1_2.index t = ![q0.val, q1.val, q2.val] :=
  (by decide +kernel : ∀ (q0 : Fin 4) (q1 : Fin 2) (q2 : Fin 2), ∃ t : Fin grid1.N, win1_2.index t = ![q0.val, q1.val, q2.val])

/-- What point `t` writes back is block `t` of the input array scaled by the gate array, both as the region finds them. -/
theorem flushed_scale (c : Dev nD) (t : Fin cfg1.N) :
    (dat1 V c).flushed 2 t = ((cfg1.win 2).blk t).view.read (Elt Ideal) (scaled (V c main_v0) (V c main_v33)) := by
  show (cfg1.win 2).cut (grid1.coords t) ((dat1 V c).after 2 t) = _
  rw [after1_2]
  unfold out1_2
  rw [View.canon_unit_zero hz3]
  simp only [View.ld_unit_zero (S := S8x128) hz2, View.ld_unit_zero (S := S8x128x2048) hz3]
  obtain ⟨e0, e1, e2, e3, e4, -, -, -⟩ := idx_facts t
  refine funext fun (j : S8x128x2048.Idx) => ?_
  show k1_pay1 (iblk1 V c 1 t) (iblk1 V c 0 t) j = scaled (V c main_v0) (V c main_v33) (((cfg1.win 2).blk t).view.emb j)
  refine scale_at (V c main_v0) (V c main_v33) (iblk1 V c 1 t) (iblk1 V c 0 t) j (((cfg1.win 2).blk t).view.emb j) ?_ ?_
  · show (V c main_v0 : X3.Idx → EReal) (((cfg1.win 0).blk t).view.emb j) = (V c main_v0 : X3.Idx → EReal) (((cfg1.win 2).blk t).view.emb j)
    refine congrArg (V c main_v0 : X3.Idx → EReal) ?_
    funext a; apply Fin.ext
    match a with
    | ⟨0, _⟩ => show win1_0.index t (0 : Fin 3) * 8 + 1 * (j 0).val = win1_2.index t (0 : Fin 3) * 8 + 1 * (j 0).val; omega
    | ⟨1, _⟩ => show win1_0.index t (1 : Fin 3) * 128 + 1 * (j 1).val = win1_2.index t (1 : Fin 3) * 128 + 1 * (j 1).val; omega
    | ⟨2, _⟩ => show win1_0.index t (2 : Fin 3) * 2048 + 1 * (j 2).val = win1_2.index t (2 : Fin 3) * 2048 + 1 * (j 2).val; omega
  · show (V c main_v33 : Y2.Idx → EReal) (((cfg1.win 1).blk t).view.emb (ix2 (j 0) (j 1)))
        = (V c main_v33 : Y2.Idx → EReal) (ix2 ((((cfg1.win 2).blk t).view.emb j) 0) ((((cfg1.win 2).blk t).view.emb j) 1))
    refine congrArg (V c main_v33 : Y2.Idx → EReal) ?_
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 128 + 1 * (j 1).val = win1_2.index t (1 : Fin 3) * 128 + 1 * (j 1).val; omega

/-- An index of the output array is in point `t`'s block iff each coordinate is in the block's range on its axis. -/
theorem mem_blk (t : Fin cfg1.N) (i : S32x256x4096.Idx) :
    i ∈ ((cfg1.win 2).blk t).view.set ↔ ∀ a : Fin 3, win1_2.index t a * S8x128x2048.size a ≤ (i a).val ∧ (i a).val < win1_2.index t a * S8x128x2048.size a + S8x128x2048.size a := by
  show i ∈ ((View.whole main_v34).slice (win1_2.rect t)).set ↔ _
  rw [View.set_slice_whole, Rect.mem_set_unit]
  exact Iff.rfl

/-- The output's blocks tile it: entry (r, ch, k) is in the block of the point at (r / 8, ch / 128, k / 2048). -/
theorem cover (i : S32x256x4096.Idx) : ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 4096 := (i 2).isLt
  obtain ⟨t, ht⟩ := idx_onto ⟨(i 0).val / 8, by omega⟩ ⟨(i 1).val / 128, by omega⟩ ⟨(i 2).val / 2048, by omega⟩
  have q0 : win1_2.index t (0 : Fin 3) = (i 0).val / 8 := congrFun ht 0
  have q1 : win1_2.index t (1 : Fin 3) = (i 1).val / 128 := congrFun ht 1
  have q2 : win1_2.index t (2 : Fin 3) = (i 2).val / 2048 := congrFun ht 2
  refine ⟨t, flush1_2 t, ?_⟩
  rw [mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 128 ≤ (i 1).val ∧ (i 1).val < win1_2.index t (1 : Fin 3) * 128 + 128; omega
  | ⟨2, _⟩ => show win1_2.index t (2 : Fin 3) * 2048 ≤ (i 2).val ∧ (i 2).val < win1_2.index t (2 : Fin 3) * 2048 + 2048; omega

/-- After the region its output array holds the input array scaled channel by channel by the gate array. -/
theorem final_scale (c : Dev nD) : (dat1 V c).arrAt 2 cfg1.N = scaled (V c main_v0) (V c main_v33) :=
  (dat1 V c).arrAt_eq_of_cover 2 (scaled (V c main_v0) (V c main_v33)) (fun t _ => flushed_scale V c t) cover

end Cert.KernelIdeal.Scale

end
-- ==== Proof.Gate.lean ====
/-
  The gate of the channel attention as ONE function of the pooled vector y0 : [32, 256] and the nine weight matrices:
      y1   = relu (y0 · w0_1ᵀ + y0 · w01ᵀ)
      y2   = relu (y1 · w0_2ᵀ + y0 · w02ᵀ + y1 · w12ᵀ)
      z    = y2 · w0_3ᵀ + y0 · w03ᵀ + y1 · w13ᵀ + y2 · w23ᵀ
      gate = 1 / (1 + exp (-z))
  with every sum associated to the left, as both programs compute it.  The kernel's program and the reference apply
  this same chain of host operations to their pooled vectors, so the certificate never opens it: equal pooled vectors
  give equal gates.
-/
import proofs.«115935_j9929964388630_2_alg».proof.Proof.Gen.KernelIdeal

noncomputable section

namespace Cert.KernelIdeal.Mlp

open Cert.KernelIdeal Cert.KernelIdeal.Facts₀ Cert.KernelIdeal.Facts Idealize.ShloMosaic

variable {F : FTy → Type} [FloatOps F]

/-- The sigmoid gate [32, 256] of a pooled vector under the cross-linked three-layer network. -/
def gate (y : FVec F S32x256 .f32) (w0_1 : FVec F S16x256 .f32) (w0_2 : FVec F S16x16 .f32) (w0_3 : FVec F S256x16 .f32)
    (w01 w02 : FVec F S16x256 .f32) (w03 : FVec F S256x256 .f32) (w12 : FVec F S16x16 .f32) (w13 w23 : FVec F S256x16 .f32) :
    FVec F S32x256 .f32 :=
  let y01 : FVec F S32x16 .f32 := Host.dotGeneral dot_S32x256_S256x16_S32x16_1_0_0_1_n_n none y (transpose S256x16 [1, 0] w01 transposes_S16x256_S256x16_1_0)
  let y02 : FVec F S32x16 .f32 := Host.dotGeneral dot_S32x256_S256x16_S32x16_1_0_0_1_n_n none y (transpose S256x16 [1, 0] w02 transposes_S16x256_S256x16_1_0)
  let y03 : FVec F S32x256 .f32 := Host.dotGeneral dot_S32x256_S256x256_S32x256_1_0_0_1_n_n none y (transpose S256x256 [1, 0] w03 transposes_S256x256_S256x256_1_0)
  let y1 : FVec F S32x16 .f32 := maximumf
    (addf (Host.dotGeneral dot_S32x256_S256x16_S32x16_1_0_0_1_n_n none y (transpose S256x16 [1, 0] w0_1 transposes_S16x256_S256x16_1_0)) y01)
    (broadcastInDim S32x16 ![] bcast_S_S32x16 (constant S_ .f32 0x00000000#32))
  let y12 : FVec F S32x16 .f32 := Host.dotGeneral dot_S32x16_S16x16_S32x16_1_0_0_1_n_n none y1 (transpose S16x16 [1, 0] w12 transposes_S16x16_S16x16_1_0)
  let y13 : FVec F S32x256 .f32 := Host.dotGeneral dot_S32x16_S16x256_S32x256_1_0_0_1_n_n none y1 (transpose S16x256 [1, 0] w13 transposes_S256x16_S16x256_1_0)
  let y2 : FVec F S32x16 .f32 := maximumf
    (addf (addf (Host.dotGeneral dot_S32x16_S16x16_S32x16_1_0_0_1_n_n none y1 (transpose S16x16 [1, 0] w0_2 transposes_S16x16_S16x16_1_0)) y02) y12)
    (broadcastInDim S32x16 ![] bcast_S_S32x16 (constant S_ .f32 0x00000000#32))
  let y23 : FVec F S32x256 .f32 := Host.dotGeneral dot_S32x16_S16x256_S32x256_1_0_0_1_n_n none y2 (transpose S16x256 [1, 0] w23 transposes_S256x16_S16x256_1_0)
  let z : FVec F S32x256 .f32 :=
    addf (addf (addf (Host.dotGeneral dot_S32x16_S16x256_S32x256_1_0_0_1_n_n none y2 (transpose S16x256 [1, 0] w0_3 transposes_S256x16_S16x256_1_0)) y03) y13) y23
  Host.divf (broadcastInDim S32x256 ![] bcast_S_S32x256 (constant S_ .f32 0x3F800000#32))
    (addf (broadcastInDim S32x256 ![] bcast_S_S32x256 (constant S_ .f32 0x3F800000#32)) (Host.exp (Host.negf z)))

end Cert.KernelIdeal.Mlp

end
-- ==== Proof.HostSide.lean ====
/-
  The host operations of the idealized kernel's @main, read at the buffers the proof needs.  The buffer contents at the
  segment boundaries are a fold from the launch memory; here that fold is read
    * at the merged input after the first reshape: the launch contents of x with its spatial axes merged;
    * at the arguments at the pooling region's exit: the weights are written by nothing before it, so they are as launched;
    * at the merged input when the scaling region is entered: no host operation writes it and the pooling region only
      reads it, so it is what the first reshape left;
    * at the gate when the scaling region is entered: the 38 host operations between the two regions, composed, are the
      one function `Mlp.gate` of the pooling region's output and the weights;
    * at the result after the last reshape: the scaling region's output with the merged axis split again.
-/
import proofs.«115935_j9929964388630_2_alg».proof.Proof.Gen.KernelIdeal.Frame
import proofs.«115935_j9929964388630_2_alg».proof.Proof.Gate
import Idealize.ShloMosaic.Lib.StableHlo.Run
import Idealize.ShloMosaic.Lib.Pipeline.Value

set_option maxRecDepth 16384

noncomputable section

namespace Cert.KernelIdeal.HostSide

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- After the first reshape the merged input is the launch contents of x, reshaped. -/
theorem merged_in (c : Dev nD) : W1 m ρ c (Proc.devRef .tc main_v0)
    = shapeCast S32x256x4096 (m ((c : Thread nD τ).loc main_arg0)) Facts₀.shapeCasts_S32x256x64x64_S32x256x4096 := by
  show StableHlo.after hostOps0 (W0 m ρ c) (Proc.devRef .tc main_v0) = _
  after_results <;> rfl

/-! The weights at the pooling region's exit are as launched. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)

/-- The merged input when the scaling region is entered is still what the first reshape left: the host operations in
    between write other buffers, and the pooling region's input window never writes its array back. -/
theorem merged_kept (c : Dev nD) : W7 m ρ c (Proc.devRef .tc main_v0) = W1 m ρ c (Proc.devRef .tc main_v0) := by
  have h1 : W7 m ρ c (Proc.devRef .tc main_v0) = W2 m ρ c (Proc.devRef .tc main_v0) := by
    show StableHlo.after hostOps1_4 (StableHlo.after hostOps1_3 (StableHlo.after hostOps1_2 (StableHlo.after hostOps1_1
      (StableHlo.after hostOps1 (W2 m ρ c))))) (Proc.devRef .tc main_v0) = _
    after_results_simp
  rw [h1]
  refine (W2_arr m ρ c 0).trans ?_
  rw [(dat0 (V1 m ρ) c).arrAt_in 0 rfl cfg0.N, A_eq0]

/-- The gate when the scaling region is entered: the host operations between the regions, composed, are `Mlp.gate` of the
    pooling region's output and the weights, all read at the pooling region's exit. -/
theorem gate_in (c : Dev nD) : W7 m ρ c (Proc.devRef .tc main_v33)
    = Mlp.gate (W2 m ρ c (Proc.devRef .tc main_v1)) (W2 m ρ c (Proc.devRef .tc main_arg1)) (W2 m ρ c (Proc.devRef .tc main_arg2))
        (W2 m ρ c (Proc.devRef .tc main_arg3)) (W2 m ρ c (Proc.devRef .tc main_arg4)) (W2 m ρ c (Proc.devRef .tc main_arg5))
        (W2 m ρ c (Proc.devRef .tc main_arg6)) (W2 m ρ c (Proc.devRef .tc main_arg7)) (W2 m ρ c (Proc.devRef .tc main_arg8))
        (W2 m ρ c (Proc.devRef .tc main_arg9)) := by
  show StableHlo.after hostOps1_4 (StableHlo.after hostOps1_3 (StableHlo.after hostOps1_2 (StableHlo.after hostOps1_1
    (StableHlo.after hostOps1 (W2 m ρ c))))) (Proc.devRef .tc main_v33) = _
  after_results_simp <;> rfl

/-- After the last reshape the result is the scaling region's output with its merged axis split again. -/
theorem split_out (c : Dev nD) : W9 m ρ c (Proc.devRef .tc main_v35)
    = shapeCast S32x256x64x64 (W8 m ρ c (Proc.devRef .tc main_v34)) Facts₀.shapeCasts_S32x256x4096_S32x256x64x64 := by
  show StableHlo.after hostOps2 (W8 m ρ c) (Proc.devRef .tc main_v35) = _
  after_results <;> rfl

end Cert.KernelIdeal.HostSide

end
-- ==== Proof.KernelValue.lean ====
/-
  The idealized kernel's result as one function of its arguments.  Following the buffer contents through @main's nine
  segments: the first reshape merges x's spatial axes; the pooling region leaves the merged array's channel means; the
  host operations in between turn them into the gate; the scaling region leaves the merged array scaled channel by
  channel by that gate; the last reshape splits the merged axis again.
-/
import proofs.«115935_j9929964388630_2_alg».proof.Proof.PoolValue
import proofs.«115935_j9929964388630_2_alg».proof.Proof.ScaleValue
import proofs.«115935_j9929964388630_2_alg».proof.Proof.HostSide

set_option maxRecDepth 16384

noncomputable section

namespace Cert.KernelIdeal.Result

open Cert.KernelIdeal Cert.KernelIdeal.Gen Cert.ChannelGate
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's value: x merged, scaled by the gate of the merged array's channel means, and split again. -/
abbrev value (c : Dev nD) : X4.Idx → EReal :=
  shapeCast X4
    (scaled (shapeCast X3 (m ((c : Thread nD τ).loc main_arg0)) Facts₀.shapeCasts_S32x256x64x64_S32x256x4096)
      (Mlp.gate (F := Ideal) (pooled (shapeCast X3 (m ((c : Thread nD τ).loc main_arg0)) Facts₀.shapeCasts_S32x256x64x64_S32x256x4096))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))))
    Facts₀.shapeCasts_S32x256x4096_S32x256x64x64

/-- At the pooling region's exit its output array holds the channel means of the merged input. -/
theorem pooled_out (c : Dev nD) : W2 m ρ c (Proc.devRef .tc main_v1)
    = pooled (shapeCast X3 (m ((c : Thread nD τ).loc main_arg0)) Facts₀.shapeCasts_S32x256x64x64_S32x256x4096) := by
  refine (W2_arr m ρ c 1).trans ?_
  rw [Pool.final_pool (V1 m ρ) c]
  show pooled (W1 m ρ c (Proc.devRef .tc main_v0)) = _
  rw [HostSide.merged_in]

/-- At the scaling region's exit its output array holds the merged input scaled by the gate. -/
theorem scaled_out (c : Dev nD) : W8 m ρ c (Proc.devRef .tc main_v34)
    = scaled (shapeCast X3 (m ((c : Thread nD τ).loc main_arg0)) Facts₀.shapeCasts_S32x256x64x64_S32x256x4096)
      (Mlp.gate (F := Ideal) (pooled (shapeCast X3 (m ((c : Thread nD τ).loc main_arg0)) Facts₀.shapeCasts_S32x256x64x64_S32x256x4096))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))) := by
  refine (W8_arr m ρ c 2).trans ?_
  rw [Scale.final_scale (V7 m ρ) c]
  show scaled (W7 m ρ c (Proc.devRef .tc main_v0)) (W7 m ρ c (Proc.devRef .tc main_v33)) = _
  rw [HostSide.merged_kept, HostSide.merged_in, HostSide.gate_in, pooled_out, HostSide.W2_arg1, HostSide.W2_arg2, HostSide.W2_arg3,
    HostSide.W2_arg4, HostSide.W2_arg5, HostSide.W2_arg6, HostSide.W2_arg7, HostSide.W2_arg8, HostSide.W2_arg9]

/-- The result buffer's contents at the last segment boundary are the kernel's value. -/
theorem result (c : Dev nD) : W9 m ρ c (Proc.devRef .tc main_v35) = value m c := by
  rw [HostSide.split_out, scaled_out]

end Cert.KernelIdeal.Result

end
-- ==== Proof.RefBridge.lean ====
/-
  The reference, read against the same three pieces.  Its @main sums x over the two spatial axes from the float zero,
  divides by the float 4096, runs the gate's network on that pooled vector, broadcasts the gate over the spatial axes and
  multiplies x by it.  So:
    * its gate stage is `Mlp.gate` of its pooled stage — the same chain of host operations, not opened;
    * its pooled stage is the channel means of x with its spatial axes merged (`ChannelGate.pooled_flat`);
    * its result at an index is x there times the gate of that index's channel;
  and therefore its result is x merged, scaled channel by channel by the gate of the merged array's channel means, and
  split again — the term the kernel's run ends at.
-/
import proofs.«115935_j9929964388630_2_alg».proof.Proof.Gen.ReferenceIdeal.Read
import proofs.«115935_j9929964388630_2_alg».proof.Proof.Spec
import proofs.«115935_j9929964388630_2_alg».proof.Proof.Gate

set_option maxRecDepth 16384

noncomputable section

namespace Cert.ReferenceIdeal.Bridge

open Cert.ReferenceIdeal Cert.ReferenceIdeal.Read Cert.ChannelGate
open Idealize.ShloMosaic Idealize.ShloMosaic.ValueIdx

/-- The reference's gate stage is the network applied to its pooled stage. -/
theorem gate_eq {F : FTy → Type} [FloatOps F] (x0 : FVec F S32x256x64x64 .f32) (x1 : FVec F S16x256 .f32) (x2 : FVec F S16x16 .f32)
    (x3 : FVec F S256x16 .f32) (x4 x5 : FVec F S16x256 .f32) (x6 : FVec F S256x256 .f32) (x7 : FVec F S16x16 .f32)
    (x8 x9 : FVec F S256x16 .f32) :
    val_main_v34 (F := F) x0 x1 x2 x3 x4 x5 x6 x7 x8 x9
      = Cert.KernelIdeal.Mlp.gate (val_main_v2 (F := F) x0) x1 x2 x3 x4 x5 x6 x7 x8 x9 := rfl

/-- The reference's pooled stage is the channel means of x with its spatial axes merged. -/
theorem pool_eq (x0 : FVec Ideal S32x256x64x64 .f32) (h : X4.ShapeCasts X3) :
    val_main_v2 (F := Ideal) x0 = pooled (shapeCast X3 x0 h) := by
  funext j
  exact (pooled_flat x0 h Facts₀.reducesTo_S32x256x64x64_S32x256_d2_3 j).symm

/-- The reference's result at an index: x there times the gate stage at the index's channel. -/
theorem out_eq (x0 : FVec Ideal S32x256x64x64 .f32) (x1 : FVec Ideal S16x256 .f32) (x2 : FVec Ideal S16x16 .f32)
    (x3 : FVec Ideal S256x16 .f32) (x4 x5 : FVec Ideal S16x256 .f32) (x6 : FVec Ideal S256x256 .f32) (x7 : FVec Ideal S16x16 .f32)
    (x8 x9 : FVec Ideal S256x16 .f32) (i : S32x256x64x64.Idx) :
    val_main_v37 (F := Ideal) x0 x1 x2 x3 x4 x5 x6 x7 x8 x9 i
      = x0 i * val_main_v34 (F := Ideal) x0 x1 x2 x3 x4 x5 x6 x7 x8 x9 (ix2 (i 0) (i 1)) := by
  rw [val_main_v37_apply, val_main_v36_apply, val_main_v35_apply]
  show x0 i * val_main_v34 (F := Ideal) x0 x1 x2 x3 x4 x5 x6 x7 x8 x9 (idx_main_v35 (idx_main_v36 i)) = _
  refine congrArg (fun s => x0 i * val_main_v34 (F := Ideal) x0 x1 x2 x3 x4 x5 x6 x7 x8 x9 s) ?_
  funext a; apply Fin.ext
  match a with
  | ⟨0, _⟩ => rfl
  | ⟨1, _⟩ => rfl

/-- THE REFERENCE'S VALUE: x merged, scaled by the gate of the merged array's channel means, and split again. -/
theorem ref_value (x0 : FVec Ideal S32x256x64x64 .f32) (x1 : FVec Ideal S16x256 .f32) (x2 : FVec Ideal S16x16 .f32)
    (x3 : FVec Ideal S256x16 .f32) (x4 x5 : FVec Ideal S16x256 .f32) (x6 : FVec Ideal S256x256 .f32) (x7 : FVec Ideal S16x16 .f32)
    (x8 x9 : FVec Ideal S256x16 .f32) (h : X4.ShapeCasts X3) (hb : X3.ShapeCasts X4) :
    val_main_v37 (F := Ideal) x0 x1 x2 x3 x4 x5 x6 x7 x8 x9
      = shapeCast X4 (scaled (shapeCast X3 x0 h) (Cert.KernelIdeal.Mlp.gate (pooled (shapeCast X3 x0 h)) x1 x2 x3 x4 x5 x6 x7 x8 x9)) hb := by
  funext i
  rw [out_apply, out_eq, gate_eq, pool_eq x0 h]

end Cert.ReferenceIdeal.Bridge

end
-- ==== Proof.lean ====
/-
  A squeeze-and-excite channel gate on x : f32[32, 256, 64, 64], as a two-kernel program against its jnp reference,
  equal over the extended reals.

  Both programs compute  out[b, c, h, w] = x[b, c, h, w] · gate[b, c],  gate = sigmoid-network (y0),
  y0[b, c] = (sum of x[b, c, ·, ·]) / 4096, where the network is a cross-linked three-layer MLP of nine weight matrices
  ending in 1 / (1 + exp (-z)).  The kernel's program merges the two spatial axes into one of 4096 positions, pools
  with one kernel (a lane sum over the 4096 positions, divided by 4096), runs the network on the host, scales with a
  second kernel (each [8, 128, 2048] block times its [8, 128] gate block) and splits the merged axis again; the
  reference sums over the two spatial axes on the host, divides by 4096, runs the same network, and multiplies x by the
  gate broadcast over the spatial axes.

  What makes them equal: the network is the same chain of host operations on both sides, applied to the pooled
  vectors (never opened: `Mlp.gate`); the pooled vectors are equal because a sum over the 4096 merged positions is the
  double sum over (h, w) — a re-indexing of a finite sum in a commutative monoid, valid for infinite entries too, so
  the precondition's finiteness is never used (`ChannelGate.pooled_flat`); and scaling the merged array then splitting
  the axis is scaling x itself (`ChannelGate.out_apply`).  The divisor is the same float 4096 on both sides, and no
  constant is named.

  The parts: `ChannelGate` (Spec) the mathematics; `Mlp.gate` (Gate) the network as one function; `Pool` / `Scale`
  (PoolValue, ScaleValue) each kernel region's output array as one function of the arrays it finds; `HostSide` the
  host operations between and around the regions; `Whole.run` (KernelRun) the kernel program's run with its result
  buffer named; `Result` (KernelValue) the kernel's result as a function of the arguments; `Bridge` (RefBridge) the
  reference's generated stages read against the same pieces.
-/
import proofs.«115935_j9929964388630_2_alg».proof.Defs
import proofs.«115935_j9929964388630_2_alg».proof.Proof.Gen.Kernel
import proofs.«115935_j9929964388630_2_alg».proof.Proof.Gen.Kernel.Skeleton
import proofs.«115935_j9929964388630_2_alg».proof.Proof.Gen.Kernel.Launch
import proofs.«115935_j9929964388630_2_alg».proof.Proof.Gen.Kernel.Points
import proofs.«115935_j9929964388630_2_alg».proof.Proof.Gen.Kernel.Frame
import proofs.«115935_j9929964388630_2_alg».proof.Proof.Gen.KernelIdeal
import proofs.«115935_j9929964388630_2_alg».proof.Proof.Gen.KernelIdeal.Skeleton
import proofs.«115935_j9929964388630_2_alg».proof.Proof.Gen.KernelIdeal.Launch
import proofs.«115935_j9929964388630_2_alg».proof.Proof.Gen.KernelIdeal.Points
import proofs.«115935_j9929964388630_2_alg».proof.Proof.Gen.KernelIdeal.Frame
import proofs.«115935_j9929964388630_2_alg».proof.Proof.Gen.ReferenceIdeal
import proofs.«115935_j9929964388630_2_alg».proof.Proof.Gen.Pre_finite_inputs
import proofs.«115935_j9929964388630_2_alg».proof.Proof.Gen.ReferenceIdeal.Run
import proofs.«115935_j9929964388630_2_alg».proof.Proof.Gen.ReferenceIdeal.Read
import proofs.«115935_j9929964388630_2_alg».proof.Proof.KernelRun
import proofs.«115935_j9929964388630_2_alg».proof.Proof.KernelValue
import proofs.«115935_j9929964388630_2_alg».proof.Proof.RefBridge
import Idealize.ShloMosaic.Adequacy
import Idealize.ShloMosaic.Init

noncomputable section

namespace Cert.Proof

open Idealize.ShloMosaic Idealize.SL.Sem

/-- The word-level kernel program runs, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the extended reals. -/
theorem preserves : Cert.preserves_Kernel_KernelIdeal := trivial

/-- From memories agreeing on the ten arguments both programs end with the result
    "x merged, scaled channel by channel by the gate of the merged array's channel means, split again":
    the kernel by following its buffers through its nine segments (`Result.result`), the reference by reading its
    generated stages against the same pieces (`Bridge.ref_value`). -/
theorem algebraic : Cert.algebraic_KernelIdeal_ReferenceIdeal := by
  intro m ρ m' ρ' _ hagree
  refine ⟨fun c => Cert.KernelIdeal.Result.value m c, ?_, ?_⟩
  · exact (θ_run Cert.KernelIdeal.defs _ _).mono
      (fun _ h c => ⟨(h c).1.trans (Cert.KernelIdeal.Result.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v37_eq, h0, h1, h2, h3, h4, h5, h6, h7, h8, h9]
    exact Cert.ReferenceIdeal.Bridge.ref_value _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
